-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x2 : Shape := ⟨2, ![1048576, 2]⟩
abbrev S64x2 : Shape := ⟨2, ![64, 2]⟩
abbrev S64 : Shape := ⟨1, ![64]⟩
abbrev S64x64 : Shape := ⟨2, ![64, 64]⟩
abbrev S128x64 : Shape := ⟨2, ![128, 64]⟩
abbrev S128 : Shape := ⟨1, ![128]⟩
abbrev S_ : Shape := ⟨0, ![]⟩

class Facts : Prop where
  bcast_S_S1048576x2 : S_.BroadcastsInDim S1048576x2 (![] : Fin 0 → Fin S1048576x2.rank)
  reducesTo_S1048576x2_S_d0_1 : S1048576x2.ReducesTo [0, 1] S_
  h_S_ : 0 < S_.numel
  bcast_S_S64x2 : S_.BroadcastsInDim S64x2 (![] : Fin 0 → Fin S64x2.rank)
  reducesTo_S64x2_S_d0_1 : S64x2.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg7 : FVec F S64x64 .f32) (main_arg8 : FVec F S64 .f32) (main_arg9 : FVec F S128x64 .f32) (main_arg10 : FVec F S128 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S128x64 .f32 := Host.absf main_arg9
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg4 : FVec F S64 .f32) (main_arg5 : FVec F S64x64 .f32) (main_arg6 : FVec F S64 .f32) (main_arg7 : FVec F S64x64 .f32) (main_arg8 : FVec F S64 .f32) (main_arg9 : FVec F S128x64 .f32) (main_arg10 : FVec F S128 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S1048576x2 .f32) (main_arg1 : FVec F S64x2 .f32) (main_arg2 : FVec F S64 .f32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S128x64 .f32) (main_arg10 : FVec F S128 .f32) : IVec S_ 1 :=
  let main_v0 : FVec F S1048576x2 .f32 := Host.absf main_arg0
  let main_cst : FVec F S_ .f32 := constant S_ .f32 0x7F800000#32
  let main_v1 : FVec F S1048576x2 .f32 := broadcastInDim S1048576x2 ![] bcast_S_S1048576x2 main_cst
  let main_v2 : IVec S1048576x2 1 := cmpf .olt main_v0 main_v1
  let main_c : IVec S_ 1 := constantI S_ 1 1#1
  let main_v3 : IVec S_ 1 := (fun x v => Host.reduce IntOp.andi x v reducesTo_S1048576x2_S_d0_1 h_S_) main_v2 main_c
  let main_v4 : FVec F S64x2 .f32 := Host.absf main_arg1
  let main_cst_0 : FVec F S_ .f32 := constant S_ .f32 0x7F800000#32
  let main_v5 : FVec F S64x2 .f32 := broadcastInDim S64x2 ![] bcast_S_S64x2 main_cst_0
  let main_v6 : IVec S64x2 1 := cmpf .olt main_v4 main_v5
  let main_c_1 : IVec S_ 1 := constantI S_ 1 1#1
  let main_v7 : IVec S_ 1 := (fun x v => Host.reduce IntOp.andi x v reducesTo_S64x2_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_arg9 main_arg10 main_v13 main_v16
-- ==== Kernel.lean ====
abbrev S1048576x2 : Shape := ⟨2, ![1048576, 2]⟩
abbrev S64x2 : Shape := ⟨2, ![64, 2]⟩
abbrev S64 : Shape := ⟨1, ![64]⟩
abbrev S64x64 : Shape := ⟨2, ![64, 64]⟩
abbrev S128x64 : Shape := ⟨2, ![128, 64]⟩
abbrev S128 : Shape := ⟨1, ![128]⟩
abbrev S2x64 : Shape := ⟨2, ![2, 64]⟩
abbrev S1x64 : Shape := ⟨2, ![1, 64]⟩
abbrev S64x128 : Shape := ⟨2, ![64, 128]⟩
abbrev S1x128 : Shape := ⟨2, ![1, 128]⟩
abbrev S1048576x128 : Shape := ⟨2, ![1048576, 128]⟩
abbrev S8192x2 : Shape := ⟨2, ![8192, 2]⟩
abbrev S8192x128 : Shape := ⟨2, ![8192, 128]⟩
abbrev S8192x1 : Shape := ⟨2, ![8192, 1]⟩
abbrev S8192x64 : Shape := ⟨2, ![8192, 64]⟩
abbrev S1048576x64x2 : Shape := ⟨3, ![1048576, 64, 2]⟩

abbrev nBuf : Space → Nat
  | .hbm => 27
  | .vmem => 14
  | .smem => 0
  | _ => 0

abbrev bufTy : (tb : Table) → Fin (tcTables nBuf tb) → BufTy
  | .hbm, ⟨0, _⟩ => ⟨S1048576x2, .f32⟩
  | .hbm, ⟨1, _⟩ => ⟨S64x2, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S128x64, .f32⟩
  | .hbm, ⟨10, _⟩ => ⟨S128, .f32⟩
  | .hbm, ⟨11, _⟩ => ⟨S2x64, .f32⟩
  | .hbm, ⟨12, _⟩ => ⟨S1x64, .f32⟩
  | .hbm, ⟨13, _⟩ => ⟨S64x64, .f32⟩
  | .hbm, ⟨14, _⟩ => ⟨S64x64, .bf16⟩
  | .hbm, ⟨15, _⟩ => ⟨S64x64, .f32⟩
  | .hbm, ⟨16, _⟩ => ⟨S64x64, .bf16⟩
  | .hbm, ⟨17, _⟩ => ⟨S64x64, .f32⟩
  | .hbm, ⟨18, _⟩ => ⟨S64x64, .bf16⟩
  | .hbm, ⟨19, _⟩ => ⟨S64x128, .f32⟩
  | .hbm, ⟨20, _⟩ => ⟨S64x128, .bf16⟩
  | .hbm, ⟨21, _⟩ => ⟨S1x64, .f32⟩
  | .hbm, ⟨22, _⟩ => ⟨S1x64, .f32⟩
  | .hbm, ⟨23, _⟩ => ⟨S1x64, .f32⟩
  | .hbm, ⟨24, _⟩ => ⟨S1x128, .f32⟩
  | .hbm, ⟨25, _⟩ => ⟨S1048576x128, .f32⟩
  | .hbm, ⟨26, _⟩ => ⟨S1048576x64x2, .f32⟩
  | .local _ .vmem, ⟨0, _⟩ => ⟨S8192x2, .f32⟩
  | .local _ .vmem, ⟨1, _⟩ => ⟨S8192x2, .f32⟩
  | .local _ .vmem, ⟨2, _⟩ => ⟨S2x64, .f32⟩
  | .local _ .vmem, ⟨3, _⟩ => ⟨S1x64, .f32⟩
  | .local _ .vmem, ⟨4, _⟩ => ⟨S64x64, .bf16⟩
  | .local _ .vmem, ⟨5, _⟩ => ⟨S1x64, .f32⟩
  | .local _ .vmem, ⟨6, _⟩ => ⟨S64x64, .bf16⟩
  | .local _ .vmem, ⟨7, _⟩ => ⟨S1x64, .f32⟩
  | .local _ .vmem, ⟨8, _⟩ => ⟨S64x64, .bf16⟩
  | .local _ .vmem, ⟨9, _⟩ => ⟨S1x64, .f32⟩
  | .local _ .vmem, ⟨10, _⟩ => ⟨S64x128, .bf16⟩
  | .local _ .vmem, ⟨11, _⟩ => ⟨S1x128, .f32⟩
  | .local _ .vmem, ⟨12, _⟩ => ⟨S8192x128, .f32⟩
  | .local _ .vmem, ⟨13, _⟩ => ⟨S8192x128, .f32⟩
  | _, _ => ⟨S1048576x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S8192x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  transposes_S64x2_S2x64_1_0 : S64x2.Transposes [1, 0] S2x64
  shapeCasts_S64_S1x64 : S64.ShapeCasts S1x64
  transposes_S64x64_S64x64_1_0 : S64x64.Transposes [1, 0] S64x64
  bitsLt_bf16_f32 : FTy.bits .bf16 < FTy.bits .f32
  transposes_S128x64_S64x128_1_0 : S128x64.Transposes [1, 0] S64x128
  shapeCasts_S128_S1x128 : S128.ShapeCasts S1x128
  inb_S8192x2_S8192x2_0_0 : ∀ a, (![0, 0] : Fin 2 → Nat) a + S8192x2.size a ≤ S8192x2.size a
  h_S8192x2 : 0 < S8192x2.numel
  inb_S2x64_S2x64_0_0 : ∀ a, (![0, 0] : Fin 2 → Nat) a + S2x64.size a ≤ S2x64.size a
  h_S2x64 : 0 < S2x64.numel
  shapeCasts_S2x64_S2x64 : S2x64.ShapeCasts S2x64
  slices_S2x64_o0_0_S1x64 : S2x64.Slices ![0, 0] S1x64
  slices_S2x64_o1_0_S1x64 : S2x64.Slices ![1, 0] S1x64
  slices_S8192x2_o0_0_S8192x1 : S8192x2.Slices ![0, 0] S8192x1
  broadcasts_S8192x1_S8192x64 : S8192x1.Broadcasts S8192x64
  broadcasts_S1x64_S8192x64 : S1x64.Broadcasts S8192x64
  slices_S8192x2_o0_1_S8192x1 : S8192x2.Slices ![0, 1] S8192x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  inb_S8192x128_S8192x128_0_0 : ∀ a, (![0, 0] : Fin 2 → Nat) a + S8192x128.size a ≤ S8192x128.size a
  h_S8192x128 : 0 < S8192x128.numel
  shapeCasts_S1048576x128_S1048576x64x2 : S1048576x128.ShapeCasts S1048576x64x2
  dot_S8192x64_S64x64_S8192x64_1_0_0_1_n_n_wf : DotDims.WF S8192x64 S64x64 S8192x64 [1] [0] [0] [1] [] []
  dot_S8192x64_S64x128_S8192x128_1_0_0_1_n_n_wf : DotDims.WF S8192x64 S64x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x2.size a ≤ S1048576x2.size a
  hwx0_0 : ∀ i : grid0.Coords, EltTy.bits .f32 = 32 ∨ (Rect.block (s := S1048576x2) S8192x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x64.size a ≤ S2x64.size a
  hwx0_1 : ∀ i : grid0.Coords, EltTy.bits .f32 = 32 ∨ (Rect.block (s := S2x64) S2x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .bf16 = 32 ∨ (Rect.block (s := S64x64) S64x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .bf16 = 32 ∨ (Rect.block (s := S64x64) S64x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .bf16 = 32 ∨ (Rect.block (s := S64x64) S64x64.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x128.size a ≤ S64x128.size a
  hwx0_9 : ∀ i : grid0.Coords, EltTy.bits .bf16 = 32 ∨ (Rect.block (s := S64x128) S64x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S8192x128.size a ≤ S1048576x128.size a
  hwx0_11 : ∀ i : grid0.Coords, EltTy.bits .f32 = 32 ∨ (Rect.block (s := S1048576x128) S8192x128.size (cc0_transform_11 i) (hinb0_11 i)).WholeWords (EltTy.packing .f32)

variable [Facts₀]

def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf

abbrev win0_0 : Pipeline.Window sig grid0 :=
  Pipeline.Window.ofSpec (Memref.whole main_arg0) S8192x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S64x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v13) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v14) S8192x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S1048576x2 : Shape := ⟨2, ![1048576, 2]⟩
abbrev S64x2 : Shape := ⟨2, ![64, 2]⟩
abbrev S64 : Shape := ⟨1, ![64]⟩
abbrev S64x64 : Shape := ⟨2, ![64, 64]⟩
abbrev S128x64 : Shape := ⟨2, ![128, 64]⟩
abbrev S128 : Shape := ⟨1, ![128]⟩
abbrev S2x64 : Shape := ⟨2, ![2, 64]⟩
abbrev S1048576x64 : Shape := ⟨2, ![1048576, 64]⟩
abbrev S1x64 : Shape := ⟨2, ![1, 64]⟩
abbrev S_ : Shape := ⟨0, ![]⟩
abbrev S64x128 : Shape := ⟨2, ![64, 128]⟩
abbrev S1048576x128 : Shape := ⟨2, ![1048576, 128]⟩
abbrev S1x128 : Shape := ⟨2, ![1, 128]⟩
abbrev S1048576x64x2 : Shape := ⟨3, ![1048576, 64, 2]⟩

abbrev nBuf : Space → Nat
  | .hbm => 57
  | .vmem => 0
  | .smem => 0
  | _ => 0

abbrev bufTy : (tb : Table) → Fin (tcTables nBuf tb) → BufTy
  | .hbm, ⟨0, _⟩ => ⟨S1048576x2, .f32⟩
  | .hbm, ⟨1, _⟩ => ⟨S64x2, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S128x64, .f32⟩
  | .hbm, ⟨10, _⟩ => ⟨S128, .f32⟩
  | .hbm, ⟨11, _⟩ => ⟨S2x64, .f32⟩
  | .hbm, ⟨12, _⟩ => ⟨S1048576x64, .f32⟩
  | .hbm, ⟨13, _⟩ => ⟨S1x64, .f32⟩
  | .hbm, ⟨14, _⟩ => ⟨S1048576x64, .f32⟩
  | .hbm, ⟨15, _⟩ => ⟨S1048576x64, .f32⟩
  | .hbm, ⟨16, _⟩ => ⟨S_, .f32⟩
  | .hbm, ⟨17, _⟩ => ⟨S1048576x64, .f32⟩
  | .hbm, ⟨18, _⟩ => ⟨S1048576x64, .f32⟩
  | .hbm, ⟨19, _⟩ => ⟨S1048576x64, .f32⟩
  | .hbm, ⟨20, _⟩ => ⟨S64x64, .f32⟩
  | .hbm, ⟨21, _⟩ => ⟨S1048576x64, .f32⟩
  | .hbm, ⟨22, _⟩ => ⟨S1x64, .f32⟩
  | .hbm, ⟨23, _⟩ => ⟨S1048576x64, .f32⟩
  | .hbm, ⟨24, _⟩ => ⟨S1048576x64, .f32⟩
  | .hbm, ⟨25, _⟩ => ⟨S_, .f32⟩
  | .hbm, ⟨26, _⟩ => ⟨S1048576x64, .f32⟩
  | .hbm, ⟨27, _⟩ => ⟨S1048576x64, .f32⟩
  | .hbm, ⟨28, _⟩ => ⟨S1048576x64, .f32⟩
  | .hbm, ⟨29, _⟩ => ⟨S64x64, .f32⟩
  | .hbm, ⟨30, _⟩ => ⟨S1048576x64, .f32⟩
  | .hbm, ⟨31, _⟩ => ⟨S1x64, .f32⟩
  | .hbm, ⟨32, _⟩ => ⟨S1048576x64, .f32⟩
  | .hbm, ⟨33, _⟩ => ⟨S1048576x64, .f32⟩
  | .hbm, ⟨34, _⟩ => ⟨S_, .f32⟩
  | .hbm, ⟨35, _⟩ => ⟨S1048576x64, .f32⟩
  | .hbm, ⟨36, _⟩ => ⟨S1048576x64, .f32⟩
  | .hbm, ⟨37, _⟩ => ⟨S1048576x64, .f32⟩
  | .hbm, ⟨38, _⟩ => ⟨S64x64, .f32⟩
  | .hbm, ⟨39, _⟩ => ⟨S1048576x64, .f32⟩
  | .hbm, ⟨40, _⟩ => ⟨S1x64, .f32⟩
  | .hbm, ⟨41, _⟩ => ⟨S1048576x64, .f32⟩
  | .hbm, ⟨42, _⟩ => ⟨S1048576x64, .f32⟩
  | .hbm, ⟨43, _⟩ => ⟨S_, .f32⟩
  | .hbm, ⟨44, _⟩ => ⟨S1048576x64, .f32⟩
  | .hbm, ⟨45, _⟩ => ⟨S1048576x64, .f32⟩
  | .hbm, ⟨46, _⟩ => ⟨S1048576x64, .f32⟩
  | .hbm, ⟨47, _⟩ => ⟨S64x128, .f32⟩
  | .hbm, ⟨48, _⟩ => ⟨S1048576x128, .f32⟩
  | .hbm, ⟨49, _⟩ => ⟨S1x128, .f32⟩
  | .hbm, ⟨50, _⟩ => ⟨S1048576x128, .f32⟩
  | .hbm, ⟨51, _⟩ => ⟨S1048576x128, .f32⟩
  | .hbm, ⟨52, _⟩ => ⟨S_, .f32⟩
  | .hbm, ⟨53, _⟩ => ⟨S1048576x128, .f32⟩
  | .hbm, ⟨54, _⟩ => ⟨S1048576x128, .f32⟩
  | .hbm, ⟨55, _⟩ => ⟨S1048576x128, .f32⟩
  | .hbm, ⟨56, _⟩ => ⟨S1048576x64x2, .f32⟩
  | _, _ => ⟨S1048576x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_1 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_2 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_3 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩

abbrev nD : Nat := 1
abbrev τ : Topo := Topo.v7x

variable {F : FTy → Type} [FloatOps F]

class Facts₀ : Prop where
  transposes_S64x2_S2x64_1_0 : S64x2.Transposes [1, 0] S2x64
  bcast_S64_S1x64_1 : S64.BroadcastsInDim S1x64 (![1] : Fin 1 → Fin S1x64.rank)
  bcast_S1x64_S1048576x64_0_1 : S1x64.BroadcastsInDim S1048576x64 (![0, 1] : Fin 2 → Fin S1048576x64.rank)
  bcast_S_S1048576x64 : S_.BroadcastsInDim S1048576x64 (![] : Fin 0 → Fin S1048576x64.rank)
  transposes_S64x64_S64x64_1_0 : S64x64.Transposes [1, 0] S64x64
  transposes_S128x64_S64x128_1_0 : S128x64.Transposes [1, 0] S64x128
  bcast_S128_S1x128_1 : S128.BroadcastsInDim S1x128 (![1] : Fin 1 → Fin S1x128.rank)
  bcast_S1x128_S1048576x128_0_1 : S1x128.BroadcastsInDim S1048576x128 (![0, 1] : Fin 2 → Fin S1048576x128.rank)
  bcast_S_S1048576x128 : S_.BroadcastsInDim S1048576x128 (![] : Fin 0 → Fin S1048576x128.rank)
  shapeCasts_S1048576x128_S1048576x64x2 : S1048576x128.ShapeCasts S1048576x64x2
  dot_S1048576x2_S2x64_S1048576x64_1_0_0_1_n_n_wf : DotDims.WF S1048576x2 S2x64 S1048576x64 [1] [0] [0] [1] [] []
  dot_S1048576x64_S64x64_S1048576x64_1_0_0_1_n_n_wf : DotDims.WF S1048576x64 S64x64 S1048576x64 [1] [0] [0] [1] [] []
  dot_S1048576x64_S64x128_S1048576x128_1_0_0_1_n_n_wf : DotDims.WF S1048576x64 S64x128 S1048576x128 [1] [0] [0] [1] [] []

variable [Facts₀]

def dot_S1048576x2_S2x64_S1048576x64_1_0_0_1_n_n : DotDims S1048576x2 S2x64 S1048576x64 where
  lhsContracting := [1]
  rhsContracting := [0]
  lhsNonContracting := [0]
  rhsNonContracting := [1]
  lhsBatch := []
  rhsBatch := []
  wf := dot_S1048576x2_S2x64_S1048576x64_1_0_0_1_n_n_wf
def dot_S1048576x64_S64x64_S1048576x64_1_0_0_1_n_n : DotDims S1048576x64 S64x64 S1048576x64 where
  lhsContracting := [1]
  rhsContracting := [0]
  lhsNonContracting := [0]
  rhsNonContracting := [1]
  lhsBatch := []
  rhsBatch := []
  wf := dot_S1048576x64_S64x64_S1048576x64_1_0_0_1_n_n_wf
def dot_S1048576x64_S64x128_S1048576x128_1_0_0_1_n_n : DotDims S1048576x64 S64x128 S1048576x128 where
  lhsContracting := [1]
  rhsContracting := [0]
  lhsNonContracting := [0]
  rhsNonContracting := [1]
  lhsBatch := []
  rhsBatch := []
  wf := dot_S1048576x64_S64x128_S1048576x128_1_0_0_1_n_n_wf

class Facts : Prop extends Facts₀ where

variable [Facts]
-- ==== Proof.Siren.lean ====
/-
  The network both programs compute, read one row of coordinates at a time on the extended reals.

  A row `c` of two coordinates goes through five dense layers.  Each layer takes the row `h` of the layer
  before it to `j ↦ (∑ₖ h k · W j k) + b j` (`W` is stored output-unit first, as the arguments are), and between
  two layers, and after the last one, every entry passes through `x ↦ sin (5 · x)`.  The layer widths are
  2 → 64 → 64 → 64 → 64 → 128.  `G` is the whole result: row `r` of the [1048576, 128] array is the network of
  row `r` of the coordinates.  No format change, rounding or tiling is left in it; only the order of the
  operations within one entry is fixed, and both programs keep that order.
-/
import Idealize.ShloMosaic.PureOps.Ideal
import Idealize.ShloMosaic.Lib.ValueIdx

noncomputable section

namespace Cert.Siren

open Idealize.ShloMosaic Idealize.ShloMosaic.ValueIdx

/-- The activation: the sine of five times the argument (the word `0x40A00000` is the float 5). -/
def act (x : EReal) : EReal := Ideal.sin (Ideal.ofBits .f32 0x40A00000#32 * x)

/-- A dense layer before its activation, at output unit `j`: the row `h` against row `j` of the weights,
    plus the bias. -/
def dense {K N : ℕ} (h : Fin K → EReal) (W : Fin N → Fin K → EReal) (b : Fin N → EReal) (j : Fin N) : EReal :=
  (∑ k : Fin K, h k * W j k) + b j

/-- The five layers on one row of coordinates. -/
def net (c : Fin 2 → EReal) (W0 : Fin 64 → Fin 2 → EReal) (b0 : Fin 64 → EReal)
    (W1 : Fin 64 → Fin 64 → EReal) (b1 : Fin 64 → EReal) (W2 : Fin 64 → Fin 64 → EReal) (b2 : Fin 64 → EReal)
    (W3 : Fin 64 → Fin 64 → EReal) (b3 : Fin 64 → EReal) (W4 : Fin 128 → Fin 64 → EReal) (b4 : Fin 128 → EReal)
    (j : Fin 128) : EReal :=
  act (dense (fun k => act (dense (fun k => act (dense (fun k => act (dense (fun k => act (dense c W0 b0 k))
    W1 b1 k)) W2 b2 k)) W3 b3 k)) W4 b4 j)

/-- The result array as one function of the eleven argument arrays: entry `(r, j)` is output unit `j` of the
    network of row `r` of the coordinates. -/
def G (X0 : (⟨2, ![1048576, 2]⟩ : Shape).Idx → EReal)
    (X1 : (⟨2, ![64, 2]⟩ : Shape).Idx → EReal) (X2 : (⟨1, ![64]⟩ : Shape).Idx → EReal)
    (X3 : (⟨2, ![64, 64]⟩ : Shape).Idx → EReal) (X4 : (⟨1, ![64]⟩ : Shape).Idx → EReal)
    (X5 : (⟨2, ![64, 64]⟩ : Shape).Idx → EReal) (X6 : (⟨1, ![64]⟩ : Shape).Idx → EReal)
    (X7 : (⟨2, ![64, 64]⟩ : Shape).Idx → EReal) (X8 : (⟨1, ![64]⟩ : Shape).Idx → EReal)
    (X9 : (⟨2, ![128, 64]⟩ : Shape).Idx → EReal) (X10 : (⟨1, ![128]⟩ : Shape).Idx → EReal) :
    (⟨2, ![1048576, 128]⟩ : Shape).Idx → EReal :=
  fun i => net (fun k => X0 (ix2 (⟨(i 0).val, idx2_lt0 i⟩ : Fin 1048576) k))
    (fun j k => X1 (ix2 j k)) (fun j => X2 (ix1 j)) (fun j k => X3 (ix2 j k)) (fun j => X4 (ix1 j))
    (fun j k => X5 (ix2 j k)) (fun j => X6 (ix1 j)) (fun j k => X7 (ix2 j k)) (fun j => X8 (ix1 j))
    (fun j k => X9 (ix2 j k)) (fun j => X10 (ix1 j)) (⟨(i 1).val, idx2_lt1 i⟩ : Fin 128)

/-- `G` at the entry of row `r` and unit `j`. -/
theorem G_ix2 (X0 : (⟨2, ![1048576, 2]⟩ : Shape).Idx → EReal)
    (X1 : (⟨2, ![64, 2]⟩ : Shape).Idx → EReal) (X2 : (⟨1, ![64]⟩ : Shape).Idx → EReal)
    (X3 : (⟨2, ![64, 64]⟩ : Shape).Idx → EReal) (X4 : (⟨1, ![64]⟩ : Shape).Idx → EReal)
    (X5 : (⟨2, ![64, 64]⟩ : Shape).Idx → EReal) (X6 : (⟨1, ![64]⟩ : Shape).Idx → EReal)
    (X7 : (⟨2, ![64, 64]⟩ : Shape).Idx → EReal) (X8 : (⟨1, ![64]⟩ : Shape).Idx → EReal)
    (X9 : (⟨2, ![128, 64]⟩ : Shape).Idx → EReal) (X10 : (⟨1, ![128]⟩ : Shape).Idx → EReal)
    (r : Fin 1048576) (j : Fin 128) :
    G X0 X1 X2 X3 X4 X5 X6 X7 X8 X9 X10 (ix2 r j)
      = net (fun k => X0 (ix2 r k)) (fun j k => X1 (ix2 j k)) (fun j => X2 (ix1 j)) (fun j k => X3 (ix2 j k))
          (fun j => X4 (ix1 j)) (fun j k => X5 (ix2 j k)) (fun j => X6 (ix1 j)) (fun j k => X7 (ix2 j k))
          (fun j => X8 (ix1 j)) (fun j k => X9 (ix2 j k)) (fun j => X10 (ix1 j)) j := rfl

/-- The first layer's contraction has two terms. -/
theorem dense_two {N : ℕ} (c : Fin 2 → EReal) (W : Fin N → Fin 2 → EReal) (b : Fin N → EReal) (j : Fin N) :
    dense c W b j = (c 0 * W j 0 + c 1 * W j 1) + b j := by
  unfold dense
  rw [Fin.sum_univ_two]

end Cert.Siren

end
-- ==== Proof.KernelRow.lean ====
/-
  The kernel body's arithmetic read at one entry of its block.

  The body computes, on a block of 8192 rows, the five layers of `Cert.Siren.net`: the first layer as two
  broadcast products added (the contraction over the two coordinates written out), the other four as a
  matrix product into a zero accumulator with a row of biases added; before each matrix product the left
  factor changes format, which is the identity on the extended reals.  Each vector operation is read here at
  the entry `(p, j)`: row `p` of the block, output unit `j`.  The weights arrive already transposed
  (`[k, j]`), the biases as one row (`[1, j]`).
-/
import proofs.«131109_j5128190951568_2_alg».proof.Proof.Gen.KernelIdeal.Skeleton
import proofs.«131109_j5128190951568_2_alg».proof.Proof.Siren
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Row

open Idealize.ShloMosaic Idealize.ShloMosaic.ValueIdx Cert.KernelIdeal Cert.KernelIdeal.Gen Cert.Siren

/-! ## The layers as the body writes them -/

/-- The first layer: the two coordinates' columns, each broadcast along the units and multiplied by its row
    of the weights, added, plus the bias row. -/
def firstLayer (x : Vec Ideal S8192x2 .f32) (w : Vec Ideal S2x64 .f32) (b : Vec Ideal S1x64 .f32) : FVec Ideal S8192x64 .f32 :=
  addf (addf
      (mulf (broadcastTo S8192x64 (extractStridedSlice S8192x1 ![0, 0] x slices_S8192x2_o0_0_S8192x1 : FVec Ideal S8192x1 .f32) broadcasts_S8192x1_S8192x64)
        (broadcastTo S8192x64 (extractStridedSlice S1x64 ![0, 0] (shapeCast S2x64 w shapeCasts_S2x64_S2x64 : FVec Ideal S2x64 .f32) slices_S2x64_o0_0_S1x64) broadcasts_S1x64_S8192x64))
      (mulf (broadcastTo S8192x64 (extractStridedSlice S8192x1 ![0, 1] x slices_S8192x2_o0_1_S8192x1 : FVec Ideal S8192x1 .f32) broadcasts_S8192x1_S8192x64)
        (broadcastTo S8192x64 (extractStridedSlice S1x64 ![1, 0] (shapeCast S2x64 w shapeCasts_S2x64_S2x64 : FVec Ideal S2x64 .f32) slices_S2x64_o1_0_S1x64) broadcasts_S1x64_S8192x64)))
    (broadcastTo S8192x64 (shapeCast S1x64 b shapeCasts_S1x64_S1x64 : FVec Ideal S1x64 .f32) broadcasts_S1x64_S8192x64)

/-- The activation of a whole block. -/
def activate {s : Shape} (a : FVec Ideal s .f32) : FVec Ideal s .f32 :=
  sin (mulf (broadcast s (Scalar.ofBits .f32 0x40A00000#32)) a)

/-- A layer of width 64 → 64 on the activated block. -/
def hiddenLayer (a : FVec Ideal S8192x64 .f32) (w : Vec Ideal S64x64 .bf16) (b : Vec Ideal S1x64 .f32) : FVec Ideal S8192x64 .f32 :=
  addf (matmul dot_S8192x64_S64x64_S8192x64_1_0_0_1_n_n none (truncf .bf16 (activate a) bitsLt_bf16_f32)
      (shapeCast S64x64 w shapeCasts_S64x64_S64x64 : FVec Ideal S64x64 .bf16) (constant S8192x64 .f32 0x00000000#32))
    (broadcastTo S8192x64 (shapeCast S1x64 b shapeCasts_S1x64_S1x64 : FVec Ideal S1x64 .f32) broadcasts_S1x64_S8192x64)

/-- The last layer, of width 64 → 128. -/
def lastLayer (a : FVec Ideal S8192x64 .f32) (w : Vec Ideal S64x128 .bf16) (b : Vec Ideal S1x128 .f32) : FVec Ideal S8192x128 .f32 :=
  addf (matmul dot_S8192x64_S64x128_S8192x128_1_0_0_1_n_n none (truncf .bf16 (activate a) bitsLt_bf16_f32)
      (shapeCast S64x128 w shapeCasts_S64x128_S64x128 : FVec Ideal S64x128 .bf16) (constant S8192x128 .f32 0x00000000#32))
    (broadcastTo S8192x128 (shapeCast S1x128 b shapeCasts_S1x128_S1x128 : FVec Ideal S1x128 .f32) broadcasts_S1x128_S8192x128)

/-- The body's first payload is the first three layers, -/
theorem pay2_eq (x0 : Vec Ideal S8192x2 .f32) (x1 : Vec Ideal S2x64 .f32) (x2 : Vec Ideal S1x64 .f32)
    (x3 : Vec Ideal S64x64 .bf16) (x4 : Vec Ideal S1x64 .f32) (x5 : Vec Ideal S64x64 .bf16) (x6 : Vec Ideal S1x64 .f32) :
    k0_pay2 x0 x1 x2 x3 x4 x5 x6 = hiddenLayer (hiddenLayer (firstLayer x0 x1 x2) x3 x4) x5 x6 := rfl

/-- and the stored one the last two and the final activation. -/
theorem pay1_eq (v : FVec Ideal S8192x64 .f32) (x7 : Vec Ideal S64x64 .bf16) (x8 : Vec Ideal S1x64 .f32)
    (x9 : Vec Ideal S64x128 .bf16) (x10 : Vec Ideal S1x128 .f32) :
    k0_pay1 v (Scalar.ofBits .f32 0x40A00000#32) x7 x8 x9 x10 = activate (lastLayer (hiddenLayer v x7 x8) x9 x10) := rfl

/-! ## Layout operations at an entry -/

/-- A column `[a, 1]` broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The activated block at an entry. -/
theorem activate_apply {s : Shape} (a : FVec Ideal s .f32) (i : s.Idx) : activate a i = act (a i) := rfl

/-! ## The first layer at an entry -/

theorem firstLayer_apply (x : Vec Ideal S8192x2 .f32) (w : Vec Ideal S2x64 .f32) (b : Vec Ideal S1x64 .f32)
    (p : Fin 8192) (j : Fin 64) :
    firstLayer x w b (ix2 p j)
      = dense (fun k => x (ix2 p k)) (fun j k => w (ix2 k j)) (fun j => b (ix2 (0 : Fin 1) j)) j := by
  rw [dense_two]
  unfold firstLayer
  show (broadcastTo S8192x64 _ broadcasts_S8192x1_S8192x64 (ix2 p j) * broadcastTo S8192x64 _ broadcasts_S1x64_S8192x64 (ix2 p j)
      + broadcastTo S8192x64 _ broadcasts_S8192x1_S8192x64 (ix2 p j) * broadcastTo S8192x64 _ broadcasts_S1x64_S8192x64 (ix2 p j))
      + broadcastTo S8192x64 _ broadcasts_S1x64_S8192x64 (ix2 p j) = _
  rw [broadcastTo_a1_ab_apply, broadcastTo_a1_ab_apply, broadcastTo_1b_ab_apply, broadcastTo_1b_ab_apply, broadcastTo_1b_ab_apply,
    shapeCast_self, shapeCast_self,
    slice2_axis1_apply 0 x slices_S8192x2_o0_0_S8192x1 p (0 : Fin 1) (0 : Fin 2) rfl,
    slice2_axis1_apply 1 x slices_S8192x2_o0_1_S8192x1 p (0 : Fin 1) (1 : Fin 2) rfl,
    slice2_axis0_apply 0 w slices_S2x64_o0_0_S1x64 (0 : Fin 1) j (0 : Fin 2) rfl,
    slice2_axis0_apply 1 w slices_S2x64_o1_0_S1x64 (0 : Fin 1) j (1 : Fin 2) rfl]

/-! ## The matrix products at an entry -/

theorem lhs64_0 (i : S8192x64.Idx) (q : dot_S8192x64_S64x64_S8192x64_1_0_0_1_n_n.contr.Idx) :
    (dot_S8192x64_S64x64_S8192x64_1_0_0_1_n_n.lhsIdx i q 0).val = (i 0).val := by
  unfold DotDims.lhsIdx
  rw [dif_neg (show ¬(0 : Fin S8192x64.rank) ∈ dot_S8192x64_S64x64_S8192x64_1_0_0_1_n_n.lhsBatch by decide), dif_pos (show (0 : Fin S8192x64.rank) ∈ dot_S8192x64_S64x64_S8192x64_1_0_0_1_n_n.lhsNonContracting by decide)]
  rfl
theorem rhs64_1 (i : S8192x64.Idx) (q : dot_S8192x64_S64x64_S8192x64_1_0_0_1_n_n.contr.Idx) :
    (dot_S8192x64_S64x64_S8192x64_1_0_0_1_n_n.rhsIdx i q 1).val = (i 1).val := by
  unfold DotDims.rhsIdx
  rw [dif_neg (show ¬(1 : Fin S64x64.rank) ∈ dot_S8192x64_S64x64_S8192x64_1_0_0_1_n_n.rhsBatch by decide), dif_pos (show (1 : Fin S64x64.rank) ∈ dot_S8192x64_S64x64_S8192x64_1_0_0_1_n_n.rhsNonContracting by decide)]
  rfl

/-- The [8192, 64] × [64, 64] product into the zero accumulator, at `(p, j)`: the sum over the 64 units of
    the left factor at `(p, k)` times the right at `(k, j)`. -/
theorem matmul64_apply (L : FVec Ideal S8192x64 .bf16) (R : FVec Ideal S64x64 .bf16) (p : Fin 8192) (j : Fin 64) :
    matmul dot_S8192x64_S64x64_S8192x64_1_0_0_1_n_n none L R (constant S8192x64 .f32 0x00000000#32) (ix2 p j)
      = ∑ k : Fin 64, L (ix2 p k) * R (ix2 k j) := by
  refine (Ideal.matmul_constant_zero_apply _ none L R (ix2 p j)).trans ?_
  rw [← Equiv.sum_comp (contrEquiv1 dot_S8192x64_S64x64_S8192x64_1_0_0_1_n_n 64 rfl rfl).symm]
  refine Finset.sum_congr rfl fun k _ => ?_
  have hk := contrEquiv1_symm_val dot_S8192x64_S64x64_S8192x64_1_0_0_1_n_n 64 rfl rfl k
  have el : dot_S8192x64_S64x64_S8192x64_1_0_0_1_n_n.lhsIdx (ix2 p j) ((contrEquiv1 dot_S8192x64_S64x64_S8192x64_1_0_0_1_n_n 64 rfl rfl).symm k) = ix2 p k := funext fun a => Fin.ext (by
    match a with
    | ⟨0, _⟩ => exact lhs64_0 _ _
    | ⟨1, _⟩ => exact (dot_S8192x64_S64x64_S8192x64_1_0_0_1_n_n.lhsIdx_val_of_single rfl _ _).trans hk)
  have er : dot_S8192x64_S64x64_S8192x64_1_0_0_1_n_n.rhsIdx (ix2 p j) ((contrEquiv1 dot_S8192x64_S64x64_S8192x64_1_0_0_1_n_n 64 rfl rfl).symm k) = ix2 k j := funext fun a => Fin.ext (by
    match a with
    | ⟨0, _⟩ => exact (dot_S8192x64_S64x64_S8192x64_1_0_0_1_n_n.rhsIdx_val_of_single rfl _ _).trans hk
    | ⟨1, _⟩ => exact rhs64_1 _ _)
  rw [el, er]

theorem lhs128_0 (i : S8192x128.Idx) (q : dot_S8192x64_S64x128_S8192x128_1_0_0_1_n_n.contr.Idx) :
    (dot_S8192x64_S64x128_S8192x128_1_0_0_1_n_n.lhsIdx i q 0).val = (i 0).val := by
  unfold DotDims.lhsIdx
  rw [dif_neg (show ¬(0 : Fin S8192x64.rank) ∈ dot_S8192x64_S64x128_S8192x128_1_0_0_1_n_n.lhsBatch by decide), dif_pos (show (0 : Fin S8192x64.rank) ∈ dot_S8192x64_S64x128_S8192x128_1_0_0_1_n_n.lhsNonContracting by decide)]
  rfl
theorem rhs128_1 (i : S8192x128.Idx) (q : dot_S8192x64_S64x128_S8192x128_1_0_0_1_n_n.contr.Idx) :
    (dot_S8192x64_S64x128_S8192x128_1_0_0_1_n_n.rhsIdx i q 1).val = (i 1).val := by
  unfold DotDims.rhsIdx
  rw [dif_neg (show ¬(1 : Fin S64x128.rank) ∈ dot_S8192x64_S64x128_S8192x128_1_0_0_1_n_n.rhsBatch by decide), dif_pos (show (1 : Fin S64x128.rank) ∈ dot_S8192x64_S64x128_S8192x128_1_0_0_1_n_n.rhsNonContracting by decide)]
  rfl

/-- The [8192, 64] × [64, 128] product into the zero accumulator, at `(p, j)`: the sum over the 64 units of
    the left factor at `(p, k)` times the right at `(k, j)`. -/
theorem matmul128_apply (L : FVec Ideal S8192x64 .bf16) (R : FVec Ideal S64x128 .bf16) (p : Fin 8192) (j : Fin 128) :
    matmul dot_S8192x64_S64x128_S8192x128_1_0_0_1_n_n none L R (constant S8192x128 .f32 0x00000000#32) (ix2 p j)
      = ∑ k : Fin 64, L (ix2 p k) * R (ix2 k j) := by
  refine (Ideal.matmul_constant_zero_apply _ none L R (ix2 p j)).trans ?_
  rw [← Equiv.sum_comp (contrEquiv1 dot_S8192x64_S64x128_S8192x128_1_0_0_1_n_n 64 rfl rfl).symm]
  refine Finset.sum_congr rfl fun k _ => ?_
  have hk := contrEquiv1_symm_val dot_S8192x64_S64x128_S8192x128_1_0_0_1_n_n 64 rfl rfl k
  have el : dot_S8192x64_S64x128_S8192x128_1_0_0_1_n_n.lhsIdx (ix2 p j) ((contrEquiv1 dot_S8192x64_S64x128_S8192x128_1_0_0_1_n_n 64 rfl rfl).symm k) = ix2 p k := funext fun a => Fin.ext (by
    match a with
    | ⟨0, _⟩ => exact lhs128_0 _ _
    | ⟨1, _⟩ => exact (dot_S8192x64_S64x128_S8192x128_1_0_0_1_n_n.lhsIdx_val_of_single rfl _ _).trans hk)
  have er : dot_S8192x64_S64x128_S8192x128_1_0_0_1_n_n.rhsIdx (ix2 p j) ((contrEquiv1 dot_S8192x64_S64x128_S8192x128_1_0_0_1_n_n 64 rfl rfl).symm k) = ix2 k j := funext fun a => Fin.ext (by
    match a with
    | ⟨0, _⟩ => exact (dot_S8192x64_S64x128_S8192x128_1_0_0_1_n_n.rhsIdx_val_of_single rfl _ _).trans hk
    | ⟨1, _⟩ => exact rhs128_1 _ _)
  rw [el, er]

/-! ## The later layers at an entry -/

theorem hiddenLayer_apply (a : FVec Ideal S8192x64 .f32) (w : Vec Ideal S64x64 .bf16) (b : Vec Ideal S1x64 .f32)
    (p : Fin 8192) (j : Fin 64) :
    hiddenLayer a w b (ix2 p j)
      = dense (fun k => act (a (ix2 p k))) (fun j k => w (ix2 k j)) (fun j => b (ix2 (0 : Fin 1) j)) j := by
  unfold hiddenLayer dense
  show matmul _ none _ _ (constant S8192x64 .f32 0x00000000#32) (ix2 p j) + broadcastTo S8192x64 _ broadcasts_S1x64_S8192x64 (ix2 p j) = _
  rw [matmul64_apply, broadcastTo_1b_ab_apply, shapeCast_self, shapeCast_self]
  rfl

theorem lastLayer_apply (a : FVec Ideal S8192x64 .f32) (w : Vec Ideal S64x128 .bf16) (b : Vec Ideal S1x128 .f32)
    (p : Fin 8192) (j : Fin 128) :
    lastLayer a w b (ix2 p j)
      = dense (fun k => act (a (ix2 p k))) (fun j k => w (ix2 k j)) (fun j => b (ix2 (0 : Fin 1) j)) j := by
  unfold lastLayer dense
  show matmul _ none _ _ (constant S8192x128 .f32 0x00000000#32) (ix2 p j) + broadcastTo S8192x128 _ broadcasts_S1x128_S8192x128 (ix2 p j) = _
  rw [matmul128_apply, broadcastTo_1b_ab_apply, shapeCast_self, shapeCast_self]
  rfl

/-! ## The body's stored value at an entry -/

/-- Entry `(p, j)` of what the body stores is output unit `j` of the network of row `p` of the block of
    coordinates, with the weights and biases read as the body finds them. -/
theorem stored_apply (x0 : Vec Ideal S8192x2 .f32) (x1 : Vec Ideal S2x64 .f32) (x2 : Vec Ideal S1x64 .f32)
    (x3 : Vec Ideal S64x64 .bf16) (x4 : Vec Ideal S1x64 .f32) (x5 : Vec Ideal S64x64 .bf16) (x6 : Vec Ideal S1x64 .f32)
    (x7 : Vec Ideal S64x64 .bf16) (x8 : Vec Ideal S1x64 .f32) (x9 : Vec Ideal S64x128 .bf16) (x10 : Vec Ideal S1x128 .f32)
    (p : Fin 8192) (j : Fin 128) :
    k0_pay1 (k0_pay2 x0 x1 x2 x3 x4 x5 x6) (Scalar.ofBits .f32 0x40A00000#32) x7 x8 x9 x10 (ix2 p j)
      = net (fun k => x0 (ix2 p k)) (fun j k => x1 (ix2 k j)) (fun j => x2 (ix2 (0 : Fin 1) j))
          (fun j k => x3 (ix2 k j)) (fun j => x4 (ix2 (0 : Fin 1) j)) (fun j k => x5 (ix2 k j)) (fun j => x6 (ix2 (0 : Fin 1) j))
          (fun j k => x7 (ix2 k j)) (fun j => x8 (ix2 (0 : Fin 1) j)) (fun j k => x9 (ix2 k j)) (fun j => x10 (ix2 (0 : Fin 1) j)) j := by
  rw [pay1_eq, pay2_eq, activate_apply, lastLayer_apply]
  unfold net
  simp only [hiddenLayer_apply, firstLayer_apply]

end Cert.KernelIdeal.Row

end
-- ==== Proof.WholeArray.lean ====
/-
  From the body's blocks to the whole result array, and the reshape that follows the region.

  The grid has 128 points.  At point `t` the body sees rows `8192·t … 8192·t + 8191` of the coordinates and
  writes back the same rows of the [1048576, 128] result; the ten other windows are the transposed weights and
  the bias rows, each a whole array staged once, which the lines before the region computed from the
  arguments.  So what point `t` writes back is block `t` of `Cert.Siren.G` of the arguments, the 128 blocks
  tile the result, and the array ends holding `G`.  The one line after the region reshapes it to
  [1048576, 64, 2].
-/
import proofs.«131109_j5128190951568_2_alg».proof.Proof.Gen.KernelIdeal.Frame
import proofs.«131109_j5128190951568_2_alg».proof.Proof.KernelRow
import Idealize.ShloMosaic.Lib.Pipeline.Value
import Idealize.ShloMosaic.Lib.ValueLayout
import Idealize.ShloMosaic.Lib.StableHlo.Run
import Idealize.ShloMosaic.Lib.Tactic

noncomputable section

namespace Cert.KernelIdeal.Whole

open Idealize.ShloMosaic Idealize.ShloMosaic.TcCoe Idealize.SL.Sem Idealize.ShloMosaic.ValueIdx
open Idealize.ShloMosaic.Pipeline (Dat)
open Cert.KernelIdeal Cert.KernelIdeal.Gen Cert.Siren

variable (m : (ℓ : Loc nD τ sig) → Buf (Elt Ideal) ℓ) (ρ : Dev nD → PrngReg)

theorem hz : (![0, 0] : Fin 2 → Nat) = fun _ => 0 := funext fun a => by fin_cases a <;> rfl

/-! ## The row blocks: the coordinates in, the result out -/

/-- Point `t` reads block `t` of the coordinates' rows and writes block `t` of the result's. -/
theorem moving : ∀ t : Fin cfg0.N, win0_0.index t (0 : Fin 2) = t.val ∧ win0_0.index t (1 : Fin 2) = 0
    ∧ win0_11.index t (0 : Fin 2) = t.val ∧ win0_11.index t (1 : Fin 2) = 0 :=
  (by decide +kernel : ∀ t : Fin grid0.N, _)

/-- Row `p` of the block of coordinates at point `t` is row `8192·t + p` of the argument. -/
theorem blk0 (c : Dev nD) (t : Fin cfg0.N) (p : Fin 8192) (r : Fin 1048576) (hr : r.val = 8192 * t.val + p.val) (k : Fin 2) :
    (iblk m c 0 t : Vec Ideal S8192x2 .f32) (ix2 p k) = ((m ((c : Thread nD τ).loc main_arg0)) : S1048576x2.Idx → EReal) (ix2 r k) := by
  obtain ⟨e0, e1, -, -⟩ := moving t
  unfold iblk
  rw [View.read_apply]
  show V m c main_arg0 _ = _
  rw [V_main_arg0]
  refine congrArg _ (funext fun a => Fin.ext ?_)
  match a with
  | ⟨0, _⟩ => show win0_0.index t (0 : Fin 2) * 8192 + 1 * p.val = r.val; rw [e0, hr]; omega
  | ⟨1, _⟩ => show win0_0.index t (1 : Fin 2) * 2 + 1 * k.val = k.val; rw [e1]; omega

/-! ## The resident windows: what the lines before the region left, read at an entry -/

/-- Window 1's array as the region finds it: the weights `main_arg1` transposed. -/
theorem entry1 (c : Dev nD) : (V m c main_v0 : S2x64.Idx → EReal) = transpose S2x64 [1, 0] (m ((c : Thread nD τ).loc main_arg1)) transposes_S64x2_S2x64_1_0 := by
  show StableHlo.after hostOps0 (fun b => m (c, b)) (Proc.devRef .tc main_v0) = _
  after_results
  try rfl
/-- Window 1's block is its whole array at every point. -/
theorem fixed1 : ∀ t : Fin cfg0.N, win0_1.index t (0 : Fin 2) = 0 ∧ win0_1.index t (1 : Fin 2) = 0 :=
  (by decide +kernel : ∀ t : Fin grid0.N, _)
theorem blk1 (c : Dev nD) (t : Fin cfg0.N) (k : Fin 2) (j : Fin 64) :
    (iblk m c 1 t : Vec Ideal S2x64 .f32) (ix2 k j) = ((m ((c : Thread nD τ).loc main_arg1)) : S64x2.Idx → EReal) (ix2 j k) := by
  obtain ⟨e0, e1⟩ := fixed1 t
  unfold iblk
  rw [View.read_apply]
  show V m c main_v0 _ = _
  rw [entry1]
  refine Eq.trans (congrArg _ (funext fun a => Fin.ext ?_)) (transpose_ix2_apply _ transposes_S64x2_S2x64_1_0 k j)
  match a with
  | ⟨0, _⟩ => show win0_1.index t (0 : Fin 2) * 2 + 1 * k.val = k.val; rw [e0]; omega
  | ⟨1, _⟩ => show win0_1.index t (1 : Fin 2) * 64 + 1 * j.val = j.val; rw [e1]; omega

/-- Window 2's array as the region finds it: the bias `main_arg2` as one row. -/
theorem entry2 (c : Dev nD) : (V m c main_v1 : S1x64.Idx → EReal) = shapeCast S1x64 (m ((c : Thread nD τ).loc main_arg2)) shapeCasts_S64_S1x64 := by
  show StableHlo.after hostOps0 (fun b => m (c, b)) (Proc.devRef .tc main_v1) = _
  after_results
  try rfl
/-- Window 2's block is its whole array at every point. -/
theorem fixed2 : ∀ t : Fin cfg0.N, win0_2.index t (0 : Fin 2) = 0 ∧ win0_2.index t (1 : Fin 2) = 0 :=
  (by decide +kernel : ∀ t : Fin grid0.N, _)
theorem blk2 (c : Dev nD) (t : Fin cfg0.N) (j : Fin 64) :
    (iblk m c 2 t : Vec Ideal S1x64 .f32) (ix2 (0 : Fin 1) j) = ((m ((c : Thread nD τ).loc main_arg2)) : S64.Idx → EReal) (ix1 j) := by
  obtain ⟨e0, e1⟩ := fixed2 t
  unfold iblk
  rw [View.read_apply]
  show V m c main_v1 _ = _
  rw [entry2]
  refine Eq.trans (congrArg _ (funext fun a => Fin.ext ?_)) (shapeCast_a_1a_apply _ shapeCasts_S64_S1x64 (0 : Fin 1) j)
  match a with
  | ⟨0, _⟩ => show win0_2.index t (0 : Fin 2) * 1 + 1 * 0 = 0; rw [e0]
  | ⟨1, _⟩ => show win0_2.index t (1 : Fin 2) * 64 + 1 * j.val = j.val; rw [e1]; omega

/-- Window 3's array as the region finds it: the weights `main_arg3` transposed (the format change is the identity here). -/
theorem entry3 (c : Dev nD) : (V m c main_v3 : S64x64.Idx → EReal) = truncf .bf16 (transpose S64x64 [1, 0] (m ((c : Thread nD τ).loc main_arg3)) transposes_S64x64_S64x64_1_0 : FVec Ideal S64x64 .f32) bitsLt_bf16_f32 := by
  show StableHlo.after hostOps0 (fun b => m (c, b)) (Proc.devRef .tc main_v3) = _
  after_results
  try rfl
/-- Window 3's block is its whole array at every point. -/
theorem fixed3 : ∀ t : Fin cfg0.N, win0_3.index t (0 : Fin 2) = 0 ∧ win0_3.index t (1 : Fin 2) = 0 :=
  (by decide +kernel : ∀ t : Fin grid0.N, _)
theorem blk3 (c : Dev nD) (t : Fin cfg0.N) (k : Fin 64) (j : Fin 64) :
    (iblk m c 3 t : Vec Ideal S64x64 .bf16) (ix2 k j) = ((m ((c : Thread nD τ).loc main_arg3)) : S64x64.Idx → EReal) (ix2 j k) := by
  obtain ⟨e0, e1⟩ := fixed3 t
  unfold iblk
  rw [View.read_apply]
  show V m c main_v3 _ = _
  rw [entry3]
  refine Eq.trans (congrArg _ (funext fun a => Fin.ext ?_)) ((truncf_apply _ bitsLt_bf16_f32 _).trans (transpose_ix2_apply _ transposes_S64x64_S64x64_1_0 k j))
  match a with
  | ⟨0, _⟩ => show win0_3.index t (0 : Fin 2) * 64 + 1 * k.val = k.val; rw [e0]; omega
  | ⟨1, _⟩ => show win0_3.index t (1 : Fin 2) * 64 + 1 * j.val = j.val; rw [e1]; omega

/-- Window 4's array as the region finds it: the bias `main_arg4` as one row. -/
theorem entry4 (c : Dev nD) : (V m c main_v10 : S1x64.Idx → EReal) = shapeCast S1x64 (m ((c : Thread nD τ).loc main_arg4)) shapeCasts_S64_S1x64 := by
  show StableHlo.after hostOps0 (fun b => m (c, b)) (Proc.devRef .tc main_v10) = _
  after_results
  try rfl
/-- Window 4's block is its whole array at every point. -/
theorem fixed4 : ∀ t : Fin cfg0.N, win0_4.index t (0 : Fin 2) = 0 ∧ win0_4.index t (1 : Fin 2) = 0 :=
  (by decide +kernel : ∀ t : Fin grid0.N, _)
theorem blk4 (c : Dev nD) (t : Fin cfg0.N) (j : Fin 64) :
    (iblk m c 4 t : Vec Ideal S1x64 .f32) (ix2 (0 : Fin 1) j) = ((m ((c : Thread nD τ).loc main_arg4)) : S64.Idx → EReal) (ix1 j) := by
  obtain ⟨e0, e1⟩ := fixed4 t
  unfold iblk
  rw [View.read_apply]
  show V m c main_v10 _ = _
  rw [entry4]
  refine Eq.trans (congrArg _ (funext fun a => Fin.ext ?_)) (shapeCast_a_1a_apply _ shapeCasts_S64_S1x64 (0 : Fin 1) j)
  match a with
  | ⟨0, _⟩ => show win0_4.index t (0 : Fin 2) * 1 + 1 * 0 = 0; rw [e0]
  | ⟨1, _⟩ => show win0_4.index t (1 : Fin 2) * 64 + 1 * j.val = j.val; rw [e1]; omega

/-- Window 5's array as the region finds it: the weights `main_arg5` transposed (the format change is the identity here). -/
theorem entry5 (c : Dev nD) : (V m c main_v5 : S64x64.Idx → EReal) = truncf .bf16 (transpose S64x64 [1, 0] (m ((c : Thread nD τ).loc main_arg5)) transposes_S64x64_S64x64_1_0 : FVec Ideal S64x64 .f32) bitsLt_bf16_f32 := by
  show StableHlo.after hostOps0 (fun b => m (c, b)) (Proc.devRef .tc main_v5) = _
  after_results
  try rfl
/-- Window 5's block is its whole array at every point. -/
theorem fixed5 : ∀ t : Fin cfg0.N, win0_5.index t (0 : Fin 2) = 0 ∧ win0_5.index t (1 : Fin 2) = 0 :=
  (by decide +kernel : ∀ t : Fin grid0.N, _)
theorem blk5 (c : Dev nD) (t : Fin cfg0.N) (k : Fin 64) (j : Fin 64) :
    (iblk m c 5 t : Vec Ideal S64x64 .bf16) (ix2 k j) = ((m ((c : Thread nD τ).loc main_arg5)) : S64x64.Idx → EReal) (ix2 j k) := by
  obtain ⟨e0, e1⟩ := fixed5 t
  unfold iblk
  rw [View.read_apply]
  show V m c main_v5 _ = _
  rw [entry5]
  refine Eq.trans (congrArg _ (funext fun a => Fin.ext ?_)) ((truncf_apply _ bitsLt_bf16_f32 _).trans (transpose_ix2_apply _ transposes_S64x64_S64x64_1_0 k j))
  match a with
  | ⟨0, _⟩ => show win0_5.index t (0 : Fin 2) * 64 + 1 * k.val = k.val; rw [e0]; omega
  | ⟨1, _⟩ => show win0_5.index t (1 : Fin 2) * 64 + 1 * j.val = j.val; rw [e1]; omega

/-- Window 6's array as the region finds it: the bias `main_arg6` as one row. -/
theorem entry6 (c : Dev nD) : (V m c main_v11 : S1x64.Idx → EReal) = shapeCast S1x64 (m ((c : Thread nD τ).loc main_arg6)) shapeCasts_S64_S1x64 := by
  show StableHlo.after hostOps0 (fun b => m (c, b)) (Proc.devRef .tc main_v11) = _
  after_results
  try rfl
/-- Window 6's block is its whole array at every point. -/
theorem fixed6 : ∀ t : Fin cfg0.N, win0_6.index t (0 : Fin 2) = 0 ∧ win0_6.index t (1 : Fin 2) = 0 :=
  (by decide +kernel : ∀ t : Fin grid0.N, _)
theorem blk6 (c : Dev nD) (t : Fin cfg0.N) (j : Fin 64) :
    (iblk m c 6 t : Vec Ideal S1x64 .f32) (ix2 (0 : Fin 1) j) = ((m ((c : Thread nD τ).loc main_arg6)) : S64.Idx → EReal) (ix1 j) := by
  obtain ⟨e0, e1⟩ := fixed6 t
  unfold iblk
  rw [View.read_apply]
  show V m c main_v11 _ = _
  rw [entry6]
  refine Eq.trans (congrArg _ (funext fun a => Fin.ext ?_)) (shapeCast_a_1a_apply _ shapeCasts_S64_S1x64 (0 : Fin 1) j)
  match a with
  | ⟨0, _⟩ => show win0_6.index t (0 : Fin 2) * 1 + 1 * 0 = 0; rw [e0]
  | ⟨1, _⟩ => show win0_6.index t (1 : Fin 2) * 64 + 1 * j.val = j.val; rw [e1]; omega

/-- Window 7's array as the region finds it: the weights `main_arg7` transposed (the format change is the identity here). -/
theorem entry7 (c : Dev nD) : (V m c main_v7 : S64x64.Idx → EReal) = truncf .bf16 (transpose S64x64 [1, 0] (m ((c : Thread nD τ).loc main_arg7)) transposes_S64x64_S64x64_1_0 : FVec Ideal S64x64 .f32) bitsLt_bf16_f32 := by
  show StableHlo.after hostOps0 (fun b => m (c, b)) (Proc.devRef .tc main_v7) = _
  after_results
  try rfl
/-- Window 7's block is its whole array at every point. -/
theorem fixed7 : ∀ t : Fin cfg0.N, win0_7.index t (0 : Fin 2) = 0 ∧ win0_7.index t (1 : Fin 2) = 0 :=
  (by decide +kernel : ∀ t : Fin grid0.N, _)
theorem blk7 (c : Dev nD) (t : Fin cfg0.N) (k : Fin 64) (j : Fin 64) :
    (iblk m c 7 t : Vec Ideal S64x64 .bf16) (ix2 k j) = ((m ((c : Thread nD τ).loc main_arg7)) : S64x64.Idx → EReal) (ix2 j k) := by
  obtain ⟨e0, e1⟩ := fixed7 t
  unfold iblk
  rw [View.read_apply]
  show V m c main_v7 _ = _
  rw [entry7]
  refine Eq.trans (congrArg _ (funext fun a => Fin.ext ?_)) ((truncf_apply _ bitsLt_bf16_f32 _).trans (transpose_ix2_apply _ transposes_S64x64_S64x64_1_0 k j))
  match a with
  | ⟨0, _⟩ => show win0_7.index t (0 : Fin 2) * 64 + 1 * k.val = k.val; rw [e0]; omega
  | ⟨1, _⟩ => show win0_7.index t (1 : Fin 2) * 64 + 1 * j.val = j.val; rw [e1]; omega

/-- Window 8's array as the region finds it: the bias `main_arg8` as one row. -/
theorem entry8 (c : Dev nD) : (V m c main_v12 : S1x64.Idx → EReal) = shapeCast S1x64 (m ((c : Thread nD τ).loc main_arg8)) shapeCasts_S64_S1x64 := by
  show StableHlo.after hostOps0 (fun b => m (c, b)) (Proc.devRef .tc main_v12) = _
  after_results
  try rfl
/-- Window 8's block is its whole array at every point. -/
theorem fixed8 : ∀ t : Fin cfg0.N, win0_8.index t (0 : Fin 2) = 0 ∧ win0_8.index t (1 : Fin 2) = 0 :=
  (by decide +kernel : ∀ t : Fin grid0.N, _)
theorem blk8 (c : Dev nD) (t : Fin cfg0.N) (j : Fin 64) :
    (iblk m c 8 t : Vec Ideal S1x64 .f32) (ix2 (0 : Fin 1) j) = ((m ((c : Thread nD τ).loc main_arg8)) : S64.Idx → EReal) (ix1 j) := by
  obtain ⟨e0, e1⟩ := fixed8 t
  unfold iblk
  rw [View.read_apply]
  show V m c main_v12 _ = _
  rw [entry8]
  refine Eq.trans (congrArg _ (funext fun a => Fin.ext ?_)) (shapeCast_a_1a_apply _ shapeCasts_S64_S1x64 (0 : Fin 1) j)
  match a with
  | ⟨0, _⟩ => show win0_8.index t (0 : Fin 2) * 1 + 1 * 0 = 0; rw [e0]
  | ⟨1, _⟩ => show win0_8.index t (1 : Fin 2) * 64 + 1 * j.val = j.val; rw [e1]; omega

/-- Window 9's array as the region finds it: the weights `main_arg9` transposed (the format change is the identity here). -/
theorem entry9 (c : Dev nD) : (V m c main_v9 : S64x128.Idx → EReal) = truncf .bf16 (transpose S64x128 [1, 0] (m ((c : Thread nD τ).loc main_arg9)) transposes_S128x64_S64x128_1_0 : FVec Ideal S64x128 .f32) bitsLt_bf16_f32 := by
  show StableHlo.after hostOps0 (fun b => m (c, b)) (Proc.devRef .tc main_v9) = _
  after_results
  try rfl
/-- Window 9's block is its whole array at every point. -/
theorem fixed9 : ∀ t : Fin cfg0.N, win0_9.index t (0 : Fin 2) = 0 ∧ win0_9.index t (1 : Fin 2) = 0 :=
  (by decide +kernel : ∀ t : Fin grid0.N, _)
theorem blk9 (c : Dev nD) (t : Fin cfg0.N) (k : Fin 64) (j : Fin 128) :
    (iblk m c 9 t : Vec Ideal S64x128 .bf16) (ix2 k j) = ((m ((c : Thread nD τ).loc main_arg9)) : S128x64.Idx → EReal) (ix2 j k) := by
  obtain ⟨e0, e1⟩ := fixed9 t
  unfold iblk
  rw [View.read_apply]
  show V m c main_v9 _ = _
  rw [entry9]
  refine Eq.trans (congrArg _ (funext fun a => Fin.ext ?_)) ((truncf_apply _ bitsLt_bf16_f32 _).trans (transpose_ix2_apply _ transposes_S128x64_S64x128_1_0 k j))
  match a with
  | ⟨0, _⟩ => show win0_9.index t (0 : Fin 2) * 64 + 1 * k.val = k.val; rw [e0]; omega
  | ⟨1, _⟩ => show win0_9.index t (1 : Fin 2) * 128 + 1 * j.val = j.val; rw [e1]; omega

/-- Window 10's array as the region finds it: the bias `main_arg10` as one row. -/
theorem entry10 (c : Dev nD) : (V m c main_v13 : S1x128.Idx → EReal) = shapeCast S1x128 (m ((c : Thread nD τ).loc main_arg10)) shapeCasts_S128_S1x128 := by
  show StableHlo.after hostOps0 (fun b => m (c, b)) (Proc.devRef .tc main_v13) = _
  after_results
  try rfl
/-- Window 10's block is its whole array at every point. -/
theorem fixed10 : ∀ t : Fin cfg0.N, win0_10.index t (0 : Fin 2) = 0 ∧ win0_10.index t (1 : Fin 2) = 0 :=
  (by decide +kernel : ∀ t : Fin grid0.N, _)
theorem blk10 (c : Dev nD) (t : Fin cfg0.N) (j : Fin 128) :
    (iblk m c 10 t : Vec Ideal S1x128 .f32) (ix2 (0 : Fin 1) j) = ((m ((c : Thread nD τ).loc main_arg10)) : S128.Idx → EReal) (ix1 j) := by
  obtain ⟨e0, e1⟩ := fixed10 t
  unfold iblk
  rw [View.read_apply]
  show V m c main_v13 _ = _
  rw [entry10]
  refine Eq.trans (congrArg _ (funext fun a => Fin.ext ?_)) (shapeCast_a_1a_apply _ shapeCasts_S128_S1x128 (0 : Fin 1) j)
  match a with
  | ⟨0, _⟩ => show win0_10.index t (0 : Fin 2) * 1 + 1 * 0 = 0; rw [e0]
  | ⟨1, _⟩ => show win0_10.index t (1 : Fin 2) * 128 + 1 * j.val = j.val; rw [e1]; omega

/-! ## One entry of what a point stores -/

/-- The body's stored value at entry `y` of its block is `G` of the whole arrays at the entry `i` that `y`
    lands on, once each block the body loads is known as rows or entries of those arrays. -/
theorem entry_eq (x0 : Vec Ideal S8192x2 .f32) (x1 : Vec Ideal S2x64 .f32) (x2 : Vec Ideal S1x64 .f32)
    (x3 : Vec Ideal S64x64 .bf16) (x4 : Vec Ideal S1x64 .f32) (x5 : Vec Ideal S64x64 .bf16) (x6 : Vec Ideal S1x64 .f32)
    (x7 : Vec Ideal S64x64 .bf16) (x8 : Vec Ideal S1x64 .f32) (x9 : Vec Ideal S64x128 .bf16) (x10 : Vec Ideal S1x128 .f32)
    (X0 : S1048576x2.Idx → EReal) (X1 : S64x2.Idx → EReal) (X2 : S64.Idx → EReal) (X3 : S64x64.Idx → EReal)
    (X4 : S64.Idx → EReal) (X5 : S64x64.Idx → EReal) (X6 : S64.Idx → EReal) (X7 : S64x64.Idx → EReal)
    (X8 : S64.Idx → EReal) (X9 : S128x64.Idx → EReal) (X10 : S128.Idx → EReal)
    (base : ℕ) (y : S8192x128.Idx) (i : S1048576x128.Idx)
    (hi0 : (i 0).val = base + (y 0).val) (hi1 : (i 1).val = (y 1).val)
    (h0 : ∀ (p : Fin 8192) (r : Fin 1048576), r.val = base + p.val → ∀ k : Fin 2, x0 (ix2 p k) = X0 (ix2 r k))
    (h1 : ∀ (k : Fin 2) (j : Fin 64), x1 (ix2 k j) = X1 (ix2 j k)) (h2 : ∀ j : Fin 64, x2 (ix2 (0 : Fin 1) j) = X2 (ix1 j))
    (h3 : ∀ (k : Fin 64) (j : Fin 64), x3 (ix2 k j) = X3 (ix2 j k)) (h4 : ∀ j : Fin 64, x4 (ix2 (0 : Fin 1) j) = X4 (ix1 j))
    (h5 : ∀ (k : Fin 64) (j : Fin 64), x5 (ix2 k j) = X5 (ix2 j k)) (h6 : ∀ j : Fin 64, x6 (ix2 (0 : Fin 1) j) = X6 (ix1 j))
    (h7 : ∀ (k : Fin 64) (j : Fin 64), x7 (ix2 k j) = X7 (ix2 j k)) (h8 : ∀ j : Fin 64, x8 (ix2 (0 : Fin 1) j) = X8 (ix1 j))
    (h9 : ∀ (k : Fin 64) (j : Fin 128), x9 (ix2 k j) = X9 (ix2 j k)) (h10 : ∀ j : Fin 128, x10 (ix2 (0 : Fin 1) j) = X10 (ix1 j)) :
    k0_pay1 (k0_pay2 x0 x1 x2 x3 x4 x5 x6) (Scalar.ofBits .f32 0x40A00000#32) x7 x8 x9 x10 y
      = G X0 X1 X2 X3 X4 X5 X6 X7 X8 X9 X10 i := by
  obtain ⟨p, q, rfl⟩ : ∃ (p : Fin 8192) (q : Fin 128), y = ix2 p q := ⟨y 0, y 1, eq_ix2 y⟩
  obtain ⟨r, j, rfl⟩ : ∃ (r : Fin 1048576) (j : Fin 128), i = ix2 r j := ⟨i 0, i 1, eq_ix2 i⟩
  have hr : r.val = base + p.val := hi0
  obtain rfl : j = q := Fin.ext hi1
  rw [Row.stored_apply, G_ix2]
  simp only [h0 p r hr, h1, h2, h3, h4, h5, h6, h7, h8, h9, h10]

/-! ## What a point writes back, the cover, the array after the run -/

/-- What point `t` writes back is block `t` of `G` of the argument arrays. -/
theorem flushed_eq (c : Dev nD) (t : Fin cfg0.N) :
    (dats m 0 c).flushed 11 t = ((cfg0.win 11).blk t).view.read (Elt Ideal)
      (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  show (cfg0.win 11).cut (grid0.coords t) ((dats m 0 c).after 11 t) = _
  rw [after0_11]
  unfold out0_11
  rw [View.canon_unit_zero hz]
  simp only [View.ld_unit_zero (S := S8192x2) hz, View.ld_unit_zero (S := S2x64) hz, View.ld_unit_zero (S := S1x64) hz,
    View.ld_unit_zero (S := S64x64) hz, View.ld_unit_zero (S := S64x128) hz, View.ld_unit_zero (S := S1x128) hz]
  obtain ⟨-, -, e0, e1⟩ := moving t
  funext y
  rw [View.read_apply]
  refine entry_eq (iblk m c 0 t) (iblk m c 1 t) (iblk m c 2 t) (iblk m c 3 t) (iblk m c 4 t) (iblk m c 5 t) (iblk m c 6 t)
    (iblk m c 7 t) (iblk m c 8 t) (iblk m c 9 t) (iblk m c 10 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
    (8192 * t.val) y (((cfg0.win 11).blk t).view.emb y) ?_ ?_
    (blk0 m c t) (blk1 m c t) (blk2 m c t) (blk3 m c t) (blk4 m c t) (blk5 m c t) (blk6 m c t) (blk7 m c t) (blk8 m c t)
    (blk9 m c t) (blk10 m c t)
  · show win0_11.index t (0 : Fin 2) * 8192 + 1 * (y 0).val = 8192 * t.val + (y 0).val
    rw [e0]; omega
  · show win0_11.index t (1 : Fin 2) * 128 + 1 * (y 1).val = (y 1).val
    rw [e1]; omega

/-- An entry of the result is in point `t`'s block iff each coordinate is in the block's range on its axis. -/
theorem mem_blk (t : Fin cfg0.N) (i : S1048576x128.Idx) :
    i ∈ ((cfg0.win 11).blk t).view.set ↔ ∀ a : Fin 2, win0_11.index t a * S8192x128.size a ≤ (i a).val
      ∧ (i a).val < win0_11.index t a * S8192x128.size a + S8192x128.size a := by
  show i ∈ ((View.whole main_v14).slice (win0_11.rect t)).set ↔ _
  rw [View.set_slice_whole, Rect.mem_set_unit]
  exact Iff.rfl

/-- Every entry of the result is written back by the point that owns its row: row `r` by point `r / 8192`. -/
theorem cover (i : S1048576x128.Idx) :
    ∃ t : Fin cfg0.N, (cfg0.win 11).flush t = true ∧ i ∈ ((cfg0.win 11).blk t).view.set := by
  have h0 : (i 0).val < 1048576 := (i 0).isLt
  have h1 : (i 1).val < 128 := (i 1).isLt
  have hN : grid0.N = 128 := N_0
  have ht : (i 0).val / 8192 < cfg0.N := by show (i 0).val / 8192 < grid0.N; rw [hN]; omega
  obtain ⟨-, -, e0, e1⟩ := moving ⟨(i 0).val / 8192, ht⟩
  refine ⟨⟨(i 0).val / 8192, ht⟩, flush0_11 _, ?_⟩
  rw [mem_blk]
  intro a
  match a with
  | ⟨0, _⟩ =>
    show win0_11.index ⟨(i 0).val / 8192, ht⟩ (0 : Fin 2) * 8192 ≤ (i 0).val
      ∧ (i 0).val < win0_11.index ⟨(i 0).val / 8192, ht⟩ (0 : Fin 2) * 8192 + 8192
    rw [e0]
    show (i 0).val / 8192 * 8192 ≤ (i 0).val ∧ (i 0).val < (i 0).val / 8192 * 8192 + 8192
    omega
  | ⟨1, _⟩ =>
    show win0_11.index ⟨(i 0).val / 8192, ht⟩ (1 : Fin 2) * 128 ≤ (i 1).val
      ∧ (i 1).val < win0_11.index ⟨(i 0).val / 8192, ht⟩ (1 : Fin 2) * 128 + 128
    rw [e1]; omega

/-- The result array after the region is `G` of the argument arrays. -/
theorem final (c : Dev nD) : (dats m 0 c).arrAt 11 cfg0.N
      = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (dats m 0 c).arrAt_eq_of_cover 11 _ (fun t _ => flushed_eq m c t) cover

/-! ## The reshape after the region, and the run -/

/-- The program's result: `G` of the arguments viewed as [1048576, 64, 2]. -/
abbrev result (c : Dev nD) : Buf (Elt Ideal) ((c : Thread nD τ).loc main_v15) :=
  shapeCast S1048576x64x2 (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) : S1048576x128.Idx → EReal)
    shapeCasts_S1048576x128_S1048576x64x2

/-- The line after the region leaves `result` in its buffer. -/
theorem tail_eq (c : Dev nD) :
    Pipeline.afterTail₀ cfgs (dats m) 0 (V0 m) [hostOps1] c main_v15 = result m c := by
  unfold Pipeline.afterTail₀
  show StableHlo.after hostOps1 _ (Proc.devRef .tc main_v15) = _
  after_results
  rw [show Pipeline.withArrays spec0 c (V0 m c) (fun w => (dats m 0 c).arrAt w cfg0.N) (Proc.devRef .tc main_v14) = _ from
    (Pipeline.withArrays_arr spec0 launch0.win.arr_inj c _ _ 11).trans (final m c)]
  rfl

/-- Every weakly fair execution of the kernel's program terminates with `result` in the result buffer and the
    arguments unchanged. -/
theorem run : θ_run defs (onTc (τ := τ) (main (F := Ideal))) ⟨m, fun _ => 0, ρ⟩ fun r => ∀ c : Dev nD,
      r.2.mem ((c.tc : Thread nD τ).loc main_v15) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨((h c).2 main_v15 (Pipeline.mem_restRefs_of main_v15 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c)⟩)
    (run_main m ρ)

end Cert.KernelIdeal.Whole

end
-- ==== Proof.RefRow.lean ====
/-
  The reference read at one entry.

  The reference applies, to the whole [1048576, 2] array of coordinates, five times: a contraction with the
  transposed weights, the bias broadcast over the rows, the product with 5, the sine.  Read at the entry of
  row `r` and unit `j`, each contraction is a sum over the units of the layer before it AT THE SAME ROW, so
  the entry depends on row `r` of the coordinates only, and is `Cert.Siren.net` of that row.
-/
import proofs.«131109_j5128190951568_2_alg».proof.Proof.Gen.ReferenceIdeal.Read
import proofs.«131109_j5128190951568_2_alg».proof.Proof.Siren

noncomputable section

namespace Cert.ReferenceIdeal.Row

open Idealize.ShloMosaic Idealize.ShloMosaic.ValueIdx Cert.ReferenceIdeal Cert.ReferenceIdeal.Read Cert.Siren

variable (x0 : (⟨S1048576x2, .f32⟩ : BufTy).Contents (Elt Ideal)) (x1 : (⟨S64x2, .f32⟩ : BufTy).Contents (Elt Ideal))
  (x2 : (⟨S64, .f32⟩ : BufTy).Contents (Elt Ideal)) (x3 : (⟨S64x64, .f32⟩ : BufTy).Contents (Elt Ideal))
  (x4 : (⟨S64, .f32⟩ : BufTy).Contents (Elt Ideal)) (x5 : (⟨S64x64, .f32⟩ : BufTy).Contents (Elt Ideal))
  (x6 : (⟨S64, .f32⟩ : BufTy).Contents (Elt Ideal)) (x7 : (⟨S64x64, .f32⟩ : BufTy).Contents (Elt Ideal))
  (x8 : (⟨S64, .f32⟩ : BufTy).Contents (Elt Ideal)) (x9 : (⟨S128x64, .f32⟩ : BufTy).Contents (Elt Ideal))
  (x10 : (⟨S128, .f32⟩ : BufTy).Contents (Elt Ideal))

/-! ## Where each contraction and each broadcast reads its operands

At the entry `(r, j)` and the contraction index `k`: the left operand at `(r, k)`, the transposed weights at
`(k, j)`, that is the weights at `(j, k)`; the twice-broadcast bias at `j`. -/

theorem lidx1 (r : Fin 1048576) (j : Fin 64) (k : Fin 2) : lidx_main_v1 (ix2 r j) k = ix2 r k :=
  funext fun a => Fin.ext (by match a with | ⟨0, _⟩ => rfl | ⟨1, _⟩ => rfl)
theorem ridx1 (r : Fin 1048576) (j : Fin 64) (k : Fin 2) : idx_main_v0 (ridx_main_v1 (ix2 r j) k) = ix2 j k :=
  funext fun a => Fin.ext (by match a with | ⟨0, _⟩ => rfl | ⟨1, _⟩ => rfl)
theorem bidx3 (r : Fin 1048576) (j : Fin 64) : idx_main_v2 (idx_main_v3 (ix2 r j)) = ix1 j :=
  funext fun a => Fin.ext (by match a with | ⟨0, _⟩ => rfl)

theorem lidx9 (r : Fin 1048576) (j : Fin 64) (k : Fin 64) : lidx_main_v9 (ix2 r j) k = ix2 r k :=
  funext fun a => Fin.ext (by match a with | ⟨0, _⟩ => rfl | ⟨1, _⟩ => rfl)
theorem ridx9 (r : Fin 1048576) (j : Fin 64) (k : Fin 64) : idx_main_v8 (ridx_main_v9 (ix2 r j) k) = ix2 j k :=
  funext fun a => Fin.ext (by match a with | ⟨0, _⟩ => rfl | ⟨1, _⟩ => rfl)
theorem bidx11 (r : Fin 1048576) (j : Fin 64) : idx_main_v10 (idx_main_v11 (ix2 r j)) = ix1 j :=
  funext fun a => Fin.ext (by match a with | ⟨0, _⟩ => rfl)

theorem lidx17 (r : Fin 1048576) (j : Fin 64) (k : Fin 64) : lidx_main_v17 (ix2 r j) k = ix2 r k :=
  funext fun a => Fin.ext (by match a with | ⟨0, _⟩ => rfl | ⟨1, _⟩ => rfl)
theorem ridx17 (r : Fin 1048576) (j : Fin 64) (k : Fin 64) : idx_main_v16 (ridx_main_v17 (ix2 r j) k) = ix2 j k :=
  funext fun a => Fin.ext (by match a with | ⟨0, _⟩ => rfl | ⟨1, _⟩ => rfl)
theorem bidx19 (r : Fin 1048576) (j : Fin 64) : idx_main_v18 (idx_main_v19 (ix2 r j)) = ix1 j :=
  funext fun a => Fin.ext (by match a with | ⟨0, _⟩ => rfl)

theorem lidx25 (r : Fin 1048576) (j : Fin 64) (k : Fin 64) : lidx_main_v25 (ix2 r j) k = ix2 r k :=
  funext fun a => Fin.ext (by match a with | ⟨0, _⟩ => rfl | ⟨1, _⟩ => rfl)
theorem ridx25 (r : Fin 1048576) (j : Fin 64) (k : Fin 64) : idx_main_v24 (ridx_main_v25 (ix2 r j) k) = ix2 j k :=
  funext fun a => Fin.ext (by match a with | ⟨0, _⟩ => rfl | ⟨1, _⟩ => rfl)
theorem bidx27 (r : Fin 1048576) (j : Fin 64) : idx_main_v26 (idx_main_v27 (ix2 r j)) = ix1 j :=
  funext fun a => Fin.ext (by match a with | ⟨0, _⟩ => rfl)

theorem lidx33 (r : Fin 1048576) (j : Fin 128) (k : Fin 64) : lidx_main_v33 (ix2 r j) k = ix2 r k :=
  funext fun a => Fin.ext (by match a with | ⟨0, _⟩ => rfl | ⟨1, _⟩ => rfl)
theorem ridx33 (r : Fin 1048576) (j : Fin 128) (k : Fin 64) : idx_main_v32 (ridx_main_v33 (ix2 r j) k) = ix2 j k :=
  funext fun a => Fin.ext (by match a with | ⟨0, _⟩ => rfl | ⟨1, _⟩ => rfl)
theorem bidx35 (r : Fin 1048576) (j : Fin 128) : idx_main_v34 (idx_main_v35 (ix2 r j)) = ix1 j :=
  funext fun a => Fin.ext (by match a with | ⟨0, _⟩ => rfl)

/-! ## Each layer before its activation, from the one before it -/

/-- The first layer: the row of coordinates against the weights. -/
theorem pre0 (r : Fin 1048576) (j : Fin 64) :
    val_main_v4 (F := Ideal) x0 x1 x2 (ix2 r j)
      = dense (fun k => x0 (ix2 r k)) (fun j k => x1 (ix2 j k)) (fun j => x2 (ix1 j)) j := by
  rw [val_main_v4_apply, val_main_v1_apply, val_main_v3_apply, val_main_v2_apply]
  simp only [val_main_v0_apply, lidx1, ridx1, bidx3]
  rfl

/-- The second layer from the first. -/
theorem pre1 (r : Fin 1048576) (j : Fin 64) :
    val_main_v12 (F := Ideal) x0 x1 x2 x3 x4 (ix2 r j)
      = dense (fun k => act (val_main_v4 (F := Ideal) x0 x1 x2 (ix2 r k))) (fun j k => x3 (ix2 j k)) (fun j => x4 (ix1 j)) j := by
  rw [val_main_v12_apply, val_main_v9_apply, val_main_v11_apply, val_main_v10_apply]
  simp only [val_main_v8_apply, lidx9, ridx9, bidx11, val_main_v7_apply, val_main_v6_apply, val_main_v5_apply, val_main_cst_apply]
  rfl

/-- The third from the second. -/
theorem pre2 (r : Fin 1048576) (j : Fin 64) :
    val_main_v20 (F := Ideal) x0 x1 x2 x3 x4 x5 x6 (ix2 r j)
      = dense (fun k => act (val_main_v12 (F := Ideal) x0 x1 x2 x3 x4 (ix2 r k))) (fun j k => x5 (ix2 j k)) (fun j => x6 (ix1 j)) j := by
  rw [val_main_v20_apply, val_main_v17_apply, val_main_v19_apply, val_main_v18_apply]
  simp only [val_main_v16_apply, lidx17, ridx17, bidx19, val_main_v15_apply, val_main_v14_apply, val_main_v13_apply, val_main_cst_0_apply]
  rfl

/-- The fourth from the third. -/
theorem pre3 (r : Fin 1048576) (j : Fin 64) :
    val_main_v28 (F := Ideal) x0 x1 x2 x3 x4 x5 x6 x7 x8 (ix2 r j)
      = dense (fun k => act (val_main_v20 (F := Ideal) x0 x1 x2 x3 x4 x5 x6 (ix2 r k))) (fun j k => x7 (ix2 j k)) (fun j => x8 (ix1 j)) j := by
  rw [val_main_v28_apply, val_main_v25_apply, val_main_v27_apply, val_main_v26_apply]
  simp only [val_main_v24_apply, lidx25, ridx25, bidx27, val_main_v23_apply, val_main_v22_apply, val_main_v21_apply, val_main_cst_1_apply]
  rfl

/-- The last from the fourth. -/
theorem pre4 (r : Fin 1048576) (j : Fin 128) :
    val_main_v36 (F := Ideal) x0 x1 x2 x3 x4 x5 x6 x7 x8 x9 x10 (ix2 r j)
      = dense (fun k => act (val_main_v28 (F := Ideal) x0 x1 x2 x3 x4 x5 x6 x7 x8 (ix2 r k))) (fun j k => x9 (ix2 j k)) (fun j => x10 (ix1 j)) j := by
  rw [val_main_v36_apply, val_main_v33_apply, val_main_v35_apply, val_main_v34_apply]
  simp only [val_main_v32_apply, lidx33, ridx33, bidx35, val_main_v31_apply, val_main_v30_apply, val_main_v29_apply, val_main_cst_2_apply]
  rfl

/-! ## The result before its final reshape -/

/-- The reference's [1048576, 128] stage is `G` of the arguments. -/
theorem stage_eq :
    val_main_v39 (F := Ideal) x0 x1 x2 x3 x4 x5 x6 x7 x8 x9 x10 = G x0 x1 x2 x3 x4 x5 x6 x7 x8 x9 x10 := by
  funext i
  obtain ⟨r, j, rfl⟩ : ∃ (r : Fin 1048576) (j : Fin 128), i = ix2 r j := ⟨i 0, i 1, eq_ix2 i⟩
  rw [G_ix2, val_main_v39_apply, val_main_v38_apply, val_main_v37_apply, val_main_cst_3_apply, pre4]
  unfold net
  simp only [pre3, pre2, pre1, pre0]
  rfl

end Cert.ReferenceIdeal.Row

end
-- ==== Proof.lean ====
/-
  Two programs compute one network, and the kernel is its own idealization.

  The kernel runs a five-layer sine network (widths 2 → 64 → 64 → 64 → 64 → 128, every layer followed by
  `x ↦ sin (5 · x)`) on 1048576 rows of two coordinates, 8192 rows per grid point: the first layer as two
  broadcast products added, the other four as matrix products of the activations (changed to a narrower
  format on the way in) with the transposed weights.  The reference computes the same layers on the whole array
  with `x @ W.T + b`.  On the extended reals a change of format is the identity, a matrix product into a zero
  accumulator and the host's contraction are the same sum over the contracted index, the kernel's sine and the
  host's are one function, and a contraction over two indices is the sum of its two terms; nothing else
  separates the two programs, so no input needs to be finite for them to agree.  Both end by viewing the
  [1048576, 128] result as [1048576, 64, 2].

  `Cert.Siren` states the network on one row; `Cert.KernelIdeal.Row` reads the body's stored value at an
  entry of its block as that network; `Cert.KernelIdeal.Whole` carries the blocks to the whole array and through
  the final reshape; `Cert.ReferenceIdeal.Row` reads the reference's last stage at an entry as the same
  network.  The three frames are the generated ones (the reference's is its generated run with the result
  dropped), and the idealization rewrote no operation of the kernel, so `preserves` is `True`.
-/
import proofs.«131109_j5128190951568_2_alg».proof.Defs
import proofs.«131109_j5128190951568_2_alg».proof.Proof.Gen.Kernel
import proofs.«131109_j5128190951568_2_alg».proof.Proof.Gen.Kernel.Skeleton
import proofs.«131109_j5128190951568_2_alg».proof.Proof.Gen.Kernel.Launch
import proofs.«131109_j5128190951568_2_alg».proof.Proof.Gen.Kernel.Points
import proofs.«131109_j5128190951568_2_alg».proof.Proof.Gen.Kernel.Frame
import proofs.«131109_j5128190951568_2_alg».proof.Proof.Gen.KernelIdeal
import proofs.«131109_j5128190951568_2_alg».proof.Proof.Gen.KernelIdeal.Skeleton
import proofs.«131109_j5128190951568_2_alg».proof.Proof.Gen.KernelIdeal.Launch
import proofs.«131109_j5128190951568_2_alg».proof.Proof.Gen.KernelIdeal.Points
import proofs.«131109_j5128190951568_2_alg».proof.Proof.Gen.KernelIdeal.Frame
import proofs.«131109_j5128190951568_2_alg».proof.Proof.Gen.ReferenceIdeal
import proofs.«131109_j5128190951568_2_alg».proof.Proof.Gen.Pre_finite_inputs
import proofs.«131109_j5128190951568_2_alg».proof.Proof.Gen.ReferenceIdeal.Run
import proofs.«131109_j5128190951568_2_alg».proof.Proof.Gen.ReferenceIdeal.Read
import proofs.«131109_j5128190951568_2_alg».proof.Proof.WholeArray
import proofs.«131109_j5128190951568_2_alg».proof.Proof.RefRow
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The kernel's idealization rewrote no operation: the idealized kernel is the kernel's own text read on the
    extended reals, and nothing is owed for it. -/
theorem preserves : Cert.preserves_Kernel_KernelIdeal := trivial

/-- Both programs end with `Cert.Siren.G` of the arguments viewed as [1048576, 64, 2]: the kernel's by its
    blocks (`Whole.run`), the reference's by its stages read at an entry (`Row.stage_eq`), on arguments
    that agree. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Read.val_main_v40_eq]
  unfold Cert.ReferenceIdeal.Read.val_main_v40
  rw [Cert.ReferenceIdeal.Row.stage_eq, a0, a1, a2, a3, a4, a5, a6, a7, a8, a9, a10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
